-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S16x256x256 : Shape := ⟨3, ![16, 256, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S16x256x256 : S_.BroadcastsInDim S16x256x256 (![] : Fin 0 → Fin S16x256x256.rank)
  reducesTo_S16x256x256_S_d0_1_2 : S16x256x256.ReducesTo [0, 1, 2] S_

variable [Facts]

def fn_part1 {F : FTy → Type} [FloatOps F] (main_arg4 : FVec F S4096 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096 .f32) (main_arg2 : FVec F S16x256x256 .f32) (main_arg3 : FVec F S16x256x256 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S16x256x256 : Shape := ⟨3, ![16, 256, 256]⟩
abbrev S16x1x256 : Shape := ⟨3, ![16, 1, 256]⟩
abbrev S4096x256 : Shape := ⟨2, ![4096, 256]⟩
abbrev S1x256 : Shape := ⟨2, ![1, 256]⟩
abbrev S512x256 : Shape := ⟨2, ![512, 256]⟩
abbrev S256 : Shape := ⟨1, ![256]⟩
abbrev S256x256 : Shape := ⟨2, ![256, 256]⟩
abbrev S1x1x256 : Shape := ⟨3, ![1, 1, 256]⟩
abbrev S256x1 : Shape := ⟨2, ![256, 1]⟩
abbrev S1x256x256 : Shape := ⟨3, ![1, 256, 256]⟩

abbrev nBuf : Space → Nat
  | .hbm => 10
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S16x256x256, .f32⟩
  | .hbm, ⟨3, _⟩ => ⟨S16x256x256, .f32⟩
  | .hbm, ⟨4, _⟩ => ⟨S4096, .f32⟩
  | .hbm, ⟨5, _⟩ => ⟨S16x1x256, .f32⟩
  | .hbm, ⟨6, _⟩ => ⟨S16x1x256, .f32⟩
  | .hbm, ⟨7, _⟩ => ⟨S16x256x256, .bf16⟩
  | .hbm, ⟨8, _⟩ => ⟨S16x256x256, .bf16⟩
  | .hbm, ⟨9, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S16x1x256, .f32⟩
  | .local _ .vmem, ⟨3, _⟩ => ⟨S16x1x256, .f32⟩
  | .local _ .vmem, ⟨4, _⟩ => ⟨S16x256x256, .bf16⟩
  | .local _ .vmem, ⟨5, _⟩ => ⟨S16x256x256, .bf16⟩
  | .local _ .vmem, ⟨6, _⟩ => ⟨S4096x256, .f32⟩
  | .local _ .vmem, ⟨7, _⟩ => ⟨S4096x256, .f32⟩
  | .local _ .vmem, ⟨8, _⟩ => ⟨S1x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_10 : BitVec 32 := 0#32
  let c0_i32 : BitVec 32 := 0#32
  let c1_i32 : BitVec 32 := 1#32
  let arg8 : BitVec 32 := Scf.iv c0_i32 c1_i32 k0_t1
  let c1_i32_9 : BitVec 32 := 1#32
  let v12 : BitVec 32 := Scalar.muli arg8 c1_i32_9
  let v13 : BitVec 32 := Scalar.addi c0_i32_10 v12
  let c512_i32 : BitVec 32 := 512#32
  let v14 : BitVec 32 := Scalar.muli v13 c512_i32
  v14
def k0_off1 (k0_t1 : Fin k0_t1_loop.trips) : Fin 2 → Nat :=
  let c0_i32_10 : BitVec 32 := 0#32
  let c0_i32 : BitVec 32 := 0#32
  let c1_i32 : BitVec 32 := 1#32
  let arg8 : BitVec 32 := Scf.iv c0_i32 c1_i32 k0_t1
  let c1_i32_9 : BitVec 32 := 1#32
  let v12 : BitVec 32 := Scalar.muli arg8 c1_i32_9
  let v13 : BitVec 32 := Scalar.addi c0_i32_10 v12
  let c512_i32 : BitVec 32 := 512#32
  let v14 : BitVec 32 := Scalar.muli v13 c512_i32
  let v15 : BitVec 32 := v14
  let v16 : Index := Scalar.indexCast v15
  let c0_11 : Index := 0#32
  ![v16.toNat, 0]
@[reducible] def k0_t2_loop : Scf.Loop 32 :=
  let c0_i32_6 : BitVec 32 := 0#32
  let c16_i32 : BitVec 32 := 16#32
  let v11 : BitVec 32 := Scalar.addi c0_i32_6 c16_i32
  let c1_i32_7 : BitVec 32 := 1#32
  ⟨c0_i32_6, v11, c1_i32_7⟩
def k0_mult2 (k0_t2 : Fin k0_t2_loop.trips) : BitVec 32 :=
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let c256_i32 : BitVec 32 := 256#32
  let v15 : BitVec 32 := Scalar.muli v13 c256_i32
  v15
def k0_mult3 (k0_t2 : Fin k0_t2_loop.trips) : BitVec 32 :=
  let c15_i32 : BitVec 32 := 15#32
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let v14 : BitVec 32 := Scalar.subi c15_i32 v13
  let c256_i32_11 : BitVec 32 := 256#32
  let v17 : BitVec 32 := Scalar.muli v14 c256_i32_11
  v17
def k0_mult4 (k0_t2 : Fin k0_t2_loop.trips) : BitVec 32 :=
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let c256_i32_12 : BitVec 32 := 256#32
  let v19 : BitVec 32 := Scalar.muli v13 c256_i32_12
  v19
def k0_off2 (k0_t2 : Fin k0_t2_loop.trips) : Fin 2 → Nat :=
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let c256_i32 : BitVec 32 := 256#32
  let v15 : BitVec 32 := Scalar.muli v13 c256_i32
  let v16 : BitVec 32 := v15
  let v21 : Index := Scalar.indexCast v16
  let c0_13 : Index := 0#32
  ![v21.toNat, 0]
def k0_off3 (k0_t2 : Fin k0_t2_loop.trips) : Fin 2 → Nat :=
  let c15_i32 : BitVec 32 := 15#32
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let v14 : BitVec 32 := Scalar.subi c15_i32 v13
  let c256_i32_11 : BitVec 32 := 256#32
  let v17 : BitVec 32 := Scalar.muli v14 c256_i32_11
  let v18 : BitVec 32 := v17
  let v23 : Index := Scalar.indexCast v18
  let c0_14 : Index := 0#32
  ![v23.toNat, 0]
def k0_off4 (k0_t2 : Fin k0_t2_loop.trips) : Fin 3 → Nat :=
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let v25 : Index := Scalar.indexCast v13
  let c0_15 : Index := 0#32
  let c0_16 : Index := 0#32
  ![v25.toNat, 0, 0]
def k0_off5 (k0_t2 : Fin k0_t2_loop.trips) : Fin 3 → Nat :=
  let c15_i32 : BitVec 32 := 15#32
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let v14 : BitVec 32 := Scalar.subi c15_i32 v13
  let v29 : Index := Scalar.indexCast v14
  let c0_17 : Index := 0#32
  let c0_18 : Index := 0#32
  ![v29.toNat, 0, 0]
def k0_off6 (k0_t2 : Fin k0_t2_loop.trips) : Fin 3 → Nat :=
  let c0_i32_10 : BitVec 32 := 0#32
  let c0_i32_6 : BitVec 32 := 0#32
  let c1_i32_7 : BitVec 32 := 1#32
  let arg8 : BitVec 32 := Scf.iv c0_i32_6 c1_i32_7 k0_t2
  let c1_i32_9 : BitVec 32 := 1#32
  let v12 : BitVec 32 := Scalar.muli arg8 c1_i32_9
  let v13 : BitVec 32 := Scalar.addi c0_i32_10 v12
  let v43 : Index := Scalar.indexCast v13
  let c0_19 : Index := 0#32
  let c0_20 : Index := 0#32
  ![v43.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S16x1x256 : S4096.ShapeCasts S16x1x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S512x256 : 0 < S512x256.numel
  reduces_S512x256_S256 : S512x256.Reduces [0] S256
  shapeCasts_S256_S1x256 : S256.ShapeCasts S1x256
  h_S256x256 : 0 < S256x256.numel
  h_S1x1x256 : 0 < S1x1x256.numel
  shapeCasts_S1x1x256_S256 : S1x1x256.ShapeCasts S256
  shapeCasts_S256_S256x1 : S256.ShapeCasts S256x1
  broadcasts_S256x1_S256x256 : S256x1.Broadcasts S256x256
  broadcasts_S1x256_S256x256 : S1x256.Broadcasts S256x256
  h_S1x256x256 : 0 < S1x256x256.numel
  shapeCasts_S1x256x256_S256x256 : S1x256x256.ShapeCasts S256x256
  dot_S256x256_S256x256_S256x256_1_0_0_1_n_n_wf : DotDims.WF S256x256 S256x256 S256x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S4096x256.size a
  k0_t2_ok : k0_t2_loop.OK
  k0_mult2_dvd : ∀ k0_t2 : Fin k0_t2_loop.trips, 256 ∣ (k0_mult2 k0_t2).toNat
  k0_mult3_dvd : ∀ k0_t2 : Fin k0_t2_loop.trips, 256 ∣ (k0_mult3 k0_t2).toNat
  k0_mult4_dvd : ∀ k0_t2 : Fin k0_t2_loop.trips, 256 ∣ (k0_mult4 k0_t2).toNat
  k0_off2_inb : ∀ k0_t2 : Fin k0_t2_loop.trips, ∀ a, (k0_off2 k0_t2) a + S256x256.size a ≤ S4096x256.size a
  k0_off3_inb : ∀ k0_t2 : Fin k0_t2_loop.trips, ∀ a, (k0_off3 k0_t2) a + S256x256.size a ≤ S4096x256.size a
  k0_off4_inb : ∀ k0_t2 : Fin k0_t2_loop.trips, ∀ a, (k0_off4 k0_t2) a + S1x1x256.size a ≤ S16x1x256.size a
  k0_off5_inb : ∀ k0_t2 : Fin k0_t2_loop.trips, ∀ a, (k0_off5 k0_t2) a + S1x1x256.size a ≤ S16x1x256.size a
  k0_off6_inb : ∀ k0_t2 : Fin k0_t2_loop.trips, ∀ a, (k0_off6 k0_t2) a + S1x256x256.size a ≤ S16x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1x256.size a ≤ S16x1x256.size a
  hwx0_1 : ∀ i : grid0.Coords, EltTy.bits .f32 = 32 ∨ (Rect.block (s := S16x1x256) S16x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1x256.size a ≤ S16x1x256.size a
  hwx0_2 : ∀ i : grid0.Coords, EltTy.bits .f32 = 32 ∨ (Rect.block (s := S16x1x256) S16x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S16x256x256.size a
  hwx0_3 : ∀ i : grid0.Coords, EltTy.bits .bf16 = 32 ∨ (Rect.block (s := S16x256x256) S16x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S16x256x256.size a
  hwx0_4 : ∀ i : grid0.Coords, EltTy.bits .bf16 = 32 ∨ (Rect.block (s := S16x256x256) S16x256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S4096x4096.size a
  hwx0_5 : ∀ i : grid0.Coords, EltTy.bits .f32 = 32 ∨ (Rect.block (s := S4096x4096) S4096x256.size (cc0_transform_5 i) (hinb0_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S16x256x256 : Shape := ⟨3, ![16, 256, 256]⟩
abbrev S_ : Shape := ⟨0, ![]⟩
abbrev S4096x1 : Shape := ⟨2, ![4096, 1]⟩
abbrev S1x4096 : Shape := ⟨2, ![1, 4096]⟩
abbrev S16x256x4096 : Shape := ⟨3, ![16, 256, 4096]⟩
abbrev S16x256x1 : Shape := ⟨3, ![16, 256, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S16x256x256, .f32⟩
  | .hbm, ⟨3, _⟩ => ⟨S16x256x256, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S16x256x4096, .f32⟩
  | .hbm, ⟨22, _⟩ => ⟨S16x256x4096, .f32⟩
  | .hbm, ⟨23, _⟩ => ⟨S16x256x4096, .f32⟩
  | .hbm, ⟨24, _⟩ => ⟨S16x256x4096, .f32⟩
  | .hbm, ⟨25, _⟩ => ⟨S16x256x4096, .f32⟩
  | .hbm, ⟨26, _⟩ => ⟨S16x256x1, .f32⟩
  | .hbm, ⟨27, _⟩ => ⟨S16x256x4096, .f32⟩
  | .hbm, ⟨28, _⟩ => ⟨S16x256x4096, .f32⟩
  | .hbm, ⟨29, _⟩ => ⟨S_, .f32⟩
  | .hbm, ⟨30, _⟩ => ⟨S16x256x4096, .f32⟩
  | .hbm, ⟨31, _⟩ => ⟨S16x256x4096, .f32⟩
  | .hbm, ⟨32, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S16x256x4096 : S4096x4096.ShapeCasts S16x256x4096
  shapeCasts_S4096_S16x256x1 : S4096.ShapeCasts S16x256x1
  bcast_S16x256x1_S16x256x4096_0_1_2 : S16x256x1.BroadcastsInDim S16x256x4096 (![0, 1, 2] : Fin 3 → Fin S16x256x4096.rank)
  bcast_S_S16x256x4096 : S_.BroadcastsInDim S16x256x4096 (![] : Fin 0 → Fin S16x256x4096.rank)
  shapeCasts_S16x256x4096_S4096x4096 : S16x256x4096.ShapeCasts S4096x4096
  dot_S16x256x256_S16x256x4096_S16x256x4096_2_1_1_2_0_0_wf : DotDims.WF S16x256x256 S16x256x4096 S16x256x4096 [2] [1] [1] [2] [0] [0]

variable [Facts₀]

def dot_S16x256x256_S16x256x4096_S16x256x4096_2_1_1_2_0_0 : DotDims S16x256x256 S16x256x4096 S16x256x4096 where
  lhsContracting := [2]
  rhsContracting := [1]
  lhsNonContracting := [1]
  rhsNonContracting := [2]
  lhsBatch := [0]
  rhsBatch := [0]
  wf := dot_S16x256x256_S16x256x4096_S16x256x4096_2_1_1_2_0_0_wf

class Facts : Prop extends Facts₀ where

variable [Facts]
-- ==== Proof.Spec.lean ====
/-
  The result both programs compute, as one function of the argument arrays over the extended reals.

  Everything is per batch column.  For a column `col : Fin 4096 → EReal` of x, the factor is
  fc col = rsqrt ((∑ r, col r · col r) · (1/4096) + ε), ε the f32 word 0x358637BD both programs carry.  Row 256·d + k of x
  belongs to feature block d.  The entry of block d, output row o, is
  max (∑ k, W_upper d o k · (col (256d+k) · rms (256d+k) · fc) + ∑ k, W_lower d o k · (col (256(15−d)+k) · rms (256(15−d)+k) · fc)
       + bias (256d+o)) 0.
  The laws that join the two programs are here too: the sum of squares taken in eight stretches of 512 rows is the
  whole sum (addition on the extended reals is a commutative monoid), 0x39800000 denotes 1/4096, and a quotient by
  the word 0x45800000 (4096) is the product with 1/4096 on every extended real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- x and the result: [4096, 4096]. -/
abbrev A2 := (⟨2, ![4096, 4096]⟩ : Shape).Idx → EReal
/-- rms_params and bias: [4096]. -/
abbrev A1 := (⟨1, ![4096]⟩ : Shape).Idx → EReal
/-- The weights: [16, 256, 256]. -/
abbrev A3 := (⟨3, ![16, 256, 256]⟩ : Shape).Idx → EReal

/-- Row k of feature block d. -/
def row (d : Fin 16) (k : Fin 256) : Fin 4096 := ⟨256 * d.val + k.val, by omega⟩

/-- The paired block. -/
def rev (d : Fin 16) : Fin 16 := ⟨15 - d.val, by omega⟩

theorem row_val (d : Fin 16) (k : Fin 256) : (row d k).val = 256 * d.val + k.val := rfl
theorem rev_val (d : Fin 16) : (rev d).val = 15 - d.val := rfl

/-- The sum of a column's squares. -/
def sumSq (col : Fin 4096 → EReal) : EReal := ∑ r : Fin 4096, col r * col r

/-- The epsilon both programs add: the same f32 word, never evaluated. -/
def eps : EReal := Ideal.ofBits .f32 0x358637BD#32

/-- A column's normalising factor. -/
def fc (col : Fin 4096 → EReal) : EReal := Ideal.rsqrt (sumSq col * ((1 / 4096 : ℝ) : EReal) + eps)

/-- One entry of the result: block d, output row o, of the column `col`. -/
def out (col rms bias : Fin 4096 → EReal) (wu wl : Fin 16 → Fin 256 → Fin 256 → EReal) (d : Fin 16) (o : Fin 256) : EReal :=
  max (∑ k : Fin 256, wu d o k * (col (row d k) * rms (row d k) * fc col)
      + ∑ k : Fin 256, wl d o k * (col (row (rev d) k) * rms (row (rev d) k) * fc col)
      + bias (row d o)) 0

/-- The whole result array as a function of the argument arrays. -/
def G (x : A2) (rms bias : A1) (wu wl : A3) : A2 := fun i =>
  out (fun r => x (ix2 r (⟨(i 1).val, idx2_lt1 i⟩ : Fin 4096))) (fun r => rms (ix1 r)) (fun r => bias (ix1 r))
    (fun d o k => wu (ix3 d o k)) (fun d o k => wl (ix3 d o k))
    ⟨(i 0).val / 256, by have := idx2_lt0 i; omega⟩ ⟨(i 0).val % 256, Nat.mod_lt _ (by decide)⟩

/-- G at row 256·d + o, column b. -/
theorem G_row (x : A2) (rms bias : A1) (wu wl : A3) (d : Fin 16) (o : Fin 256) (b : Fin 4096) :
    G x rms bias wu wl (ix2 (row d o) b)
      = out (fun r => x (ix2 r b)) (fun r => rms (ix1 r)) (fun r => bias (ix1 r))
          (fun d o k => wu (ix3 d o k)) (fun d o k => wl (ix3 d o k)) d o := by
  have hd : (⟨(row d o).val / 256, by have := (row d o).isLt; omega⟩ : Fin 16) = d :=
    Fin.ext (by show (256 * d.val + o.val) / 256 = d.val; have := o.isLt; omega)
  have ho : (⟨(row d o).val % 256, Nat.mod_lt _ (by decide)⟩ : Fin 256) = o :=
    Fin.ext (by show (256 * d.val + o.val) % 256 = o.val; have := o.isLt; omega)
  show out _ _ _ _ _ (⟨(row d o).val / 256, _⟩ : Fin 16) (⟨(row d o).val % 256, _⟩ : Fin 256) = _
  rw [hd, ho]

/-! ## The sum of squares in stretches of 512 rows -/

/-- The square of the column's entry at a row number (0 past the end, never reached). -/
def sqAt (col : Fin 4096 → EReal) (n : ℕ) : EReal := if h : n < 4096 then col ⟨n, h⟩ * col ⟨n, h⟩ else 0

/-- The running sum after c stretches: what an accumulator started at 0 holds. -/
def partialSq (col : Fin 4096 → EReal) : ℕ → EReal
  | 0 => 0
  | c + 1 => partialSq col c + ∑ r : Fin 512, sqAt col (512 * c + r.val)

theorem partialSq_range (col : Fin 4096 → EReal) (c : ℕ) :
    partialSq col c = ∑ n ∈ Finset.range (512 * c), sqAt col n := by
  induction c with
  | zero => simp [partialSq]
  | succ c ih =>
    rw [partialSq, ih, Nat.mul_succ, Finset.sum_range_add, Fin.sum_univ_eq_sum_range (fun r => sqAt col (512 * c + r)) 512]

/-- Eight stretches are the whole column. -/
theorem partialSq_eight (col : Fin 4096 → EReal) : partialSq col 8 = sumSq col := by
  rw [partialSq_range, sumSq, ← Fin.sum_univ_eq_sum_range (fun n => sqAt col n) 4096]
  refine Finset.sum_congr rfl fun r _ => ?_
  unfold sqAt
  rw [dif_pos r.isLt]

/-! ## The three f32 words that are evaluated -/

/-- 0x39800000 is 2⁻¹² = 1/4096. -/
theorem ofBits_inv4096 : Ideal.ofBits .f32 0x39800000#32 = ((1 / 4096 : ℝ) : EReal) := by
  simp [Ideal.ofBits, Ideal.ieee, -EReal.coe_mul]; norm_num

/-- 0x45800000 is 4096. -/
theorem ofBits_4096 : Ideal.ofBits .f32 0x45800000#32 = ((4096 : ℝ) : EReal) := by
  simp [Ideal.ofBits, Ideal.ieee, -EReal.coe_mul]; norm_num

/-- The quotient by 4096 is the product with 1/4096, on every extended real. -/
theorem div_4096 (a : EReal) : Ideal.div a (Ideal.ofBits .f32 0x45800000#32) = a * ((1 / 4096 : ℝ) : EReal) := by
  rw [ofBits_4096]; exact Ideal.div_coe (by norm_num) a

end Cert.Spec

end
-- ==== Proof.RefIsG.lean ====
/-
  The reference program's result is the specification's function G.

  Every stage of the reference is read at an index whose coordinates are literal: row 256·d + o of feature
  block d, batch column b.  The column's factor is rsqrt (sumSq col · (1/4096) + ε) (the sum's initial word is 0,
  the quotient by the word 4096 is the product with 1/4096); the normalised entry is x · rms · factor; the two
  contractions run over the 256 rows of block d and of the paired block 15 − d (the reversal along the block
  axis); the bias of row 256·d + o is added and the maximum with 0 taken.  The grouping is the specification's own.
-/
import proofs.«170351_j52080773431507_2_alg».proof.Proof.Gen.ReferenceIdeal.Read
import proofs.«170351_j52080773431507_2_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read Cert.Spec
open scoped BigOperators

/-! ## Index equations at literal coordinates -/

theorem idx_v1 (b k : Fin 4096) : idx_main_v1 (ix1 b) k = ix2 k b :=
  funext fun a => Fin.ext (by match a with | ⟨0, _⟩ => rfl | ⟨1, _⟩ => rfl)

theorem idx_v8 (R b : Fin 4096) : idx_main_v7 (idx_main_v8 (ix2 R b)) = ix1 R :=
  funext fun a => Fin.ext (by match a with | ⟨0, _⟩ => rfl)

theorem idx_v11 (R b : Fin 4096) : idx_main_v10 (idx_main_v11 (ix2 R b)) = ix1 b :=
  funext fun a => Fin.ext (by match a with | ⟨0, _⟩ => rfl)

theorem idx_v13 (d : Fin 16) (k : Fin 256) (b : Fin 4096) : idx_main_v13 (ix3 d k b) = ix2 (row d k) b :=
  funext fun a => Fin.ext (by
    have hd := d.isLt; have hk := k.isLt; have hb := b.isLt
    match a with
    | ⟨0, _⟩ => show ((d.val * 256 + k.val) * 4096 + b.val) / 4096 = 256 * d.val + k.val; omega
    | ⟨1, _⟩ => show ((d.val * 256 + k.val) * 4096 + b.val) % 4096 = b.val; omega)

theorem lidx_v14 (d : Fin 16) (o k : Fin 256) (b : Fin 4096) : lidx_main_v14 (ix3 d o b) k = ix3 d o k :=
  funext fun a => Fin.ext (by match a with | ⟨0, _⟩ => rfl | ⟨1, _⟩ => rfl | ⟨2, _⟩ => rfl)

theorem ridx_v14 (d : Fin 16) (o k : Fin 256) (b : Fin 4096) : ridx_main_v14 (ix3 d o b) k = ix3 d k b :=
  funext fun a => Fin.ext (by match a with | ⟨0, _⟩ => rfl | ⟨1, _⟩ => rfl | ⟨2, _⟩ => rfl)

theorem lidx_v16 (d : Fin 16) (o k : Fin 256) (b : Fin 4096) : lidx_main_v16 (ix3 d o b) k = ix3 d o k :=
  funext fun a => Fin.ext (by match a with | ⟨0, _⟩ => rfl | ⟨1, _⟩ => rfl | ⟨2, _⟩ => rfl)

theorem ridx_v16 (d : Fin 16) (o k : Fin 256) (b : Fin 4096) : ridx_main_v16 (ix3 d o b) k = ix3 d k b :=
  funext fun a => Fin.ext (by match a with | ⟨0, _⟩ => rfl | ⟨1, _⟩ => rfl | ⟨2, _⟩ => rfl)

theorem idx_v19 (d : Fin 16) (o : Fin 256) (b : Fin 4096) : idx_main_v18 (idx_main_v19 (ix3 d o b)) = ix1 (row d o) :=
  funext fun a => Fin.ext (by
    match a with
    | ⟨0, _⟩ => show (d.val * 256 + o.val) * 1 + 0 = 256 * d.val + o.val; omega)

theorem idx_v22 (d : Fin 16) (o : Fin 256) (b : Fin 4096) : idx_main_v22 (ix2 (row d o) b) = ix3 d o b :=
  funext fun a => Fin.ext (by
    have hd := d.isLt; have ho := o.isLt; have hb := b.isLt
    match a with
    | ⟨0, _⟩ => show ((256 * d.val + o.val) * 4096 + b.val) / 1048576 = d.val; omega
    | ⟨1, _⟩ => show ((256 * d.val + o.val) * 4096 + b.val) / 4096 % 256 = o.val; omega
    | ⟨2, _⟩ => show ((256 * d.val + o.val) * 4096 + b.val) % 4096 = b.val; omega)

/-- The reversal along the block axis reads block 15 − d. -/
theorem rev_idx (d : Fin 16) (k : Fin 256) (b : Fin 4096) :
    (fun a => if a ∈ ([0] : List (Fin S16x256x4096.rank)) then ((ix3 d k b : S16x256x4096.Idx) a).rev else (ix3 d k b : S16x256x4096.Idx) a)
      = (ix3 (rev d) k b : S16x256x4096.Idx) :=
  funext fun a => by
    match a with
    | ⟨0, _⟩ => exact Fin.ext (by show 16 - (d.val + 1) = 15 - d.val; omega)
    | ⟨1, _⟩ => rfl
    | ⟨2, _⟩ => rfl

variable (x0 : (⟨S4096x4096, .f32⟩ : BufTy).Contents (Elt Ideal)) (x1 : (⟨S4096, .f32⟩ : BufTy).Contents (Elt Ideal))
  (x2 x3 : (⟨S16x256x256, .f32⟩ : BufTy).Contents (Elt Ideal)) (x4 : (⟨S4096, .f32⟩ : BufTy).Contents (Elt Ideal))

/-! ## The stages at literal coordinates -/

/-- The factor of column b. -/
theorem v6_at (b : Fin 4096) :
    val_main_v6 (F := Ideal) x0 (ix1 b) = fc (fun r => x0 (ix2 r b)) := by
  rw [val_main_v6_apply, val_main_v5_apply, val_main_v3_apply, val_main_v4_apply, val_main_cst_1_apply,
    val_main_v2_apply, val_main_cst_0_apply, val_main_v1_apply, val_main_cst_apply]
  simp only [Ideal.hostUnary_rsqrt_def, Ideal.addf_def, Ideal.hostDivf_def, Ideal.ofBits_def]
  rw [Ideal.ofBits_zero_f32, zero_add, div_4096]
  unfold fc sumSq eps
  refine congrArg (fun s => Ideal.rsqrt (s * ((1 / 4096 : ℝ) : EReal) + _)) (Finset.sum_congr rfl fun k _ => ?_)
  rw [val_main_v0_apply, idx_v1, Ideal.mulf_def]

/-- The normalised entry of row R, column b. -/
theorem v12_at (R b : Fin 4096) :
    val_main_v12 (F := Ideal) x0 x1 (ix2 R b) = x0 (ix2 R b) * x1 (ix1 R) * fc (fun r => x0 (ix2 r b)) := by
  rw [val_main_v12_apply, val_main_v9_apply, val_main_v8_apply, val_main_v7_apply, val_main_v11_apply,
    val_main_v10_apply, idx_v8, idx_v11, v6_at]
  simp only [Ideal.mulf_def]

/-- The normalised entry of row k of block d, column b. -/
theorem v13_at (d : Fin 16) (k : Fin 256) (b : Fin 4096) :
    val_main_v13 (F := Ideal) x0 x1 (ix3 d k b)
      = x0 (ix2 (row d k) b) * x1 (ix1 (row d k)) * fc (fun r => x0 (ix2 r b)) := by
  rw [val_main_v13_apply, idx_v13, v12_at]

/-- The reversed array at block d is the array at block 15 − d. -/
theorem v15_at (d : Fin 16) (k : Fin 256) (b : Fin 4096) :
    val_main_v15 (F := Ideal) x0 x1 (ix3 d k b)
      = x0 (ix2 (row (rev d) k) b) * x1 (ix1 (row (rev d) k)) * fc (fun r => x0 (ix2 r b)) := by
  unfold val_main_v15 Host.reverse
  show val_main_v13 (F := Ideal) x0 x1 _ = _
  rw [rev_idx, v13_at]

/-- The contraction with the upper weights. -/
theorem v14_at (d : Fin 16) (o : Fin 256) (b : Fin 4096) :
    val_main_v14 (F := Ideal) x0 x1 x2 (ix3 d o b)
      = ∑ k : Fin 256, x2 (ix3 d o k) * (x0 (ix2 (row d k) b) * x1 (ix1 (row d k)) * fc (fun r => x0 (ix2 r b))) := by
  rw [val_main_v14_apply]
  refine Finset.sum_congr rfl fun k _ => ?_
  rw [lidx_v14, ridx_v14, v13_at]

/-- The contraction with the lower weights, over the paired block. -/
theorem v16_at (d : Fin 16) (o : Fin 256) (b : Fin 4096) :
    val_main_v16 (F := Ideal) x0 x1 x3 (ix3 d o b)
      = ∑ k : Fin 256, x3 (ix3 d o k)
          * (x0 (ix2 (row (rev d) k) b) * x1 (ix1 (row (rev d) k)) * fc (fun r => x0 (ix2 r b))) := by
  rw [val_main_v16_apply]
  refine Finset.sum_congr rfl fun k _ => ?_
  rw [lidx_v16, ridx_v16, v15_at]

/-- The bias of row o of block d. -/
theorem v19_at (d : Fin 16) (o : Fin 256) (b : Fin 4096) :
    val_main_v19 (F := Ideal) x4 (ix3 d o b) = x4 (ix1 (row d o)) := by
  rw [val_main_v19_apply, val_main_v18_apply, idx_v19]

/-- The result at row 256·d + o, column b. -/
theorem v22_at (d : Fin 16) (o : Fin 256) (b : Fin 4096) :
    val_main_v22 (F := Ideal) x0 x1 x2 x3 x4 (ix2 (row d o) b) = G x0 x1 x4 x2 x3 (ix2 (row d o) b) := by
  rw [G_row, val_main_v22_apply, idx_v22, val_main_v21_apply, val_main_v20_apply, val_main_v17_apply,
    val_main_call0_v0_apply, val_main_call0_cst_apply, v14_at, v16_at, v19_at]
  simp only [Ideal.maximumf_def, Ideal.addf_def, Ideal.ofBits_def]
  rw [Ideal.ofBits_zero_f32]
  rfl

/-- Every index is row 256·d + o of some block d, at some column b. -/
theorem cover (i : S4096x4096.Idx) : ∃ (d : Fin 16) (o : Fin 256) (b : Fin 4096), i = ix2 (row d o) b :=
  ⟨⟨(i 0).val / 256, by have := idx2_lt0 i; omega⟩, ⟨(i 0).val % 256, Nat.mod_lt _ (by decide)⟩, ⟨(i 1).val, idx2_lt1 i⟩,
    funext fun a => Fin.ext (by
      match a with
      | ⟨0, _⟩ => show (i 0).val = 256 * ((i 0).val / 256) + (i 0).val % 256; omega
      | ⟨1, _⟩ => rfl)⟩

end Cert.RefValue

open Idealize.ShloMosaic Cert.ReferenceIdeal in
theorem Cert.RefValue.ref_eq_G
    (x0 : (⟨S4096x4096, .f32⟩ : BufTy).Contents (Elt Ideal)) (x1 : (⟨S4096, .f32⟩ : BufTy).Contents (Elt Ideal))
    (x2 x3 : (⟨S16x256x256, .f32⟩ : BufTy).Contents (Elt Ideal)) (x4 : (⟨S4096, .f32⟩ : BufTy).Contents (Elt Ideal)) :
    Cert.ReferenceIdeal.Read.val_main_v22 (F := Ideal) x0 x1 x2 x3 x4 = Cert.Spec.G x0 x1 x4 x2 x3 := by
  funext i
  obtain ⟨d, o, b, rfl⟩ := Cert.RefValue.cover i
  exact Cert.RefValue.v22_at x0 x1 x2 x3 x4 d o b

end
-- ==== Proof.Slab.lean ====
/-
  The blocks the kernel body is handed at grid point t, read off the argument arrays, and the cover of the output.

  Window 0 hands the body the slab of x made of columns 256t … 256t+255; windows 1 to 4 hand it, at every point,
  the whole arrays the host made before the launch: rms_params and bias laid out as 16 × 1 × 256 (entry (d, 0, k) is
  entry 256d + k of the vector) and the two weight arrays with their format changed, which over the extended reals
  is no change.  Output window 5 writes back the slab of columns 256t … 256t+255, so the sixteen points' blocks cover
  the output array: column b lies in the block of point b / 256.
-/
import proofs.«170351_j52080773431507_2_alg».proof.Proof.Gen.KernelIdeal.Value
import proofs.«170351_j52080773431507_2_alg».proof.Proof.Spec
import Idealize.ShloMosaic.Lib.StableHlo.Run
import Idealize.ShloMosaic.Lib.Pipeline.Value
import Idealize.ShloMosaic.Lib.ValueIdx

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps, decided over the sixteen points: windows 0 and 5 sit at block column t, the others at
    block 0 on every axis. -/
theorem idx_facts : ∀ t : Fin cfg0.N,
    win0_0.index t (0 : Fin 2) = 0 ∧ win0_0.index t (1 : Fin 2) = t.val
    ∧ win0_5.index t (0 : Fin 2) = 0 ∧ win0_5.index t (1 : Fin 2) = t.val
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0 :=
  (by decide +kernel : ∀ t : Fin grid0.N, _)

/-! ## The arrays the host made before the launch -/

theorem V_v0 (c : Dev nD) :
    (V m c main_v0 : S16x1x256.Idx → EReal) = shapeCast _ (m ((c : Thread nD τ).loc main_arg1)) shapeCasts_S4096_S16x1x256 := by
  dsimp only [V, hostOps0]; after_results; rfl

theorem V_v1 (c : Dev nD) :
    (V m c main_v1 : S16x1x256.Idx → EReal) = shapeCast _ (m ((c : Thread nD τ).loc main_arg4)) shapeCasts_S4096_S16x1x256 := by
  dsimp only [V, hostOps0]; after_results; rfl

theorem V_v2 (c : Dev nD) :
    (V m c main_v2 : S16x256x256.Idx → EReal) = (m ((c : Thread nD τ).loc main_arg2) : S16x256x256.Idx → EReal) := by
  dsimp only [V, hostOps0]; after_results; rfl

theorem V_v3 (c : Dev nD) :
    (V m c main_v3 : S16x256x256.Idx → EReal) = (m ((c : Thread nD τ).loc main_arg3) : S16x256x256.Idx → EReal) := by
  dsimp only [V, hostOps0]; after_results; rfl

/-- A length-4096 vector laid out as 16 × 1 × 256, read at (d, 0, k): entry 256d + k. -/
theorem cast3_apply {α : Type} (v : S4096.Idx → α) (d : Fin 16) (k : Fin 256) :
    shapeCast S16x1x256 v shapeCasts_S4096_S16x1x256 (ix3 d (0 : Fin 1) k) = v (ix1 (Cert.Spec.row d k)) :=
  shapeCast_apply v shapeCasts_S4096_S16x1x256 _ _ (by
    rw [Shape.rowMajor_val_one, Shape.rowMajor_val_three]
    show 256 * d.val + k.val = (d.val * 1 + 0) * 256 + k.val
    omega)

/-! ## The windows' blocks at point t -/

/-- The slab of x: its entry (r, q) is x at row r, column 256t + q. -/
theorem iblk0_apply (c : Dev nD) (t : Fin cfg0.N) (r : Fin 4096) (q : Fin 256) (b : Fin 4096)
    (hb : b.val = 256 * t.val + q.val) :
    iblk m c 0 t (ix2 r q) = m ((c : Thread nD τ).loc main_arg0) (ix2 r b) := by
  obtain ⟨e0, e1, -⟩ := idx_facts t
  show V m c main_arg0 (((cfg0.win 0).blk t).view.emb (ix2 r q)) = _
  rw [V_main_arg0]
  refine congrArg _ (funext fun a => Fin.ext ?_)
  match a with
  | ⟨0, _⟩ => show win0_0.index t (0 : Fin 2) * 4096 + 1 * r.val = r.val; omega
  | ⟨1, _⟩ => show win0_0.index t (1 : Fin 2) * 256 + 1 * q.val = b.val; omega

/-- rms_params as the body sees it: entry (d, 0, k) is entry 256d + k of the vector. -/
theorem iblk1_apply (c : Dev nD) (t : Fin cfg0.N) (d : Fin 16) (k : Fin 256) :
    iblk m c 1 t (ix3 d (0 : Fin 1) k) = m ((c : Thread nD τ).loc main_arg1) (ix1 (Cert.Spec.row d k)) := by
  obtain ⟨-, -, -, -, e0, e1, e2, -⟩ := idx_facts t
  show V m c main_v0 (((cfg0.win 1).blk t).view.emb (ix3 d (0 : Fin 1) k)) = _
  have he : ((cfg0.win 1).blk t).view.emb (ix3 d (0 : Fin 1) k) = (ix3 d (0 : Fin 1) k : S16x1x256.Idx) :=
    funext fun a => Fin.ext (by
      match a with
      | ⟨0, _⟩ => show win0_1.index t (0 : Fin 3) * 16 + 1 * d.val = d.val; omega
      | ⟨1, _⟩ => show win0_1.index t (1 : Fin 3) * 1 + 1 * 0 = 0; omega
      | ⟨2, _⟩ => show win0_1.index t (2 : Fin 3) * 256 + 1 * k.val = k.val; omega)
  rw [he, V_v0, cast3_apply]

/-- bias as the body sees it. -/
theorem iblk2_apply (c : Dev nD) (t : Fin cfg0.N) (d : Fin 16) (k : Fin 256) :
    iblk m c 2 t (ix3 d (0 : Fin 1) k) = m ((c : Thread nD τ).loc main_arg4) (ix1 (Cert.Spec.row d k)) := by
  obtain ⟨-, -, -, -, -, -, -, e0, e1, e2, -⟩ := idx_facts t
  show V m c main_v1 (((cfg0.win 2).blk t).view.emb (ix3 d (0 : Fin 1) k)) = _
  have he : ((cfg0.win 2).blk t).view.emb (ix3 d (0 : Fin 1) k) = (ix3 d (0 : Fin 1) k : S16x1x256.Idx) :=
    funext fun a => Fin.ext (by
      match a with
      | ⟨0, _⟩ => show win0_2.index t (0 : Fin 3) * 16 + 1 * d.val = d.val; omega
      | ⟨1, _⟩ => show win0_2.index t (1 : Fin 3) * 1 + 1 * 0 = 0; omega
      | ⟨2, _⟩ => show win0_2.index t (2 : Fin 3) * 256 + 1 * k.val = k.val; omega)
  rw [he, V_v1, cast3_apply]

/-- The upper weights as the body sees them. -/
theorem iblk3_apply (c : Dev nD) (t : Fin cfg0.N) (d : Fin 16) (o k : Fin 256) :
    iblk m c 3 t (ix3 d o k) = m ((c : Thread nD τ).loc main_arg2) (ix3 d o k) := by
  obtain ⟨-, -, -, -, -, -, -, -, -, -, e0, e1, e2, -⟩ := idx_facts t
  show V m c main_v2 (((cfg0.win 3).blk t).view.emb (ix3 d o k)) = _
  have he : ((cfg0.win 3).blk t).view.emb (ix3 d o k) = (ix3 d o k : S16x256x256.Idx) :=
    funext fun a => Fin.ext (by
      match a with
      | ⟨0, _⟩ => show win0_3.index t (0 : Fin 3) * 16 + 1 * d.val = d.val; omega
      | ⟨1, _⟩ => show win0_3.index t (1 : Fin 3) * 256 + 1 * o.val = o.val; omega
      | ⟨2, _⟩ => show win0_3.index t (2 : Fin 3) * 256 + 1 * k.val = k.val; omega)
  rw [he, V_v2]

/-- The lower weights as the body sees them. -/
theorem iblk4_apply (c : Dev nD) (t : Fin cfg0.N) (d : Fin 16) (o k : Fin 256) :
    iblk m c 4 t (ix3 d o k) = m ((c : Thread nD τ).loc main_arg3) (ix3 d o k) := by
  obtain ⟨-, -, -, -, -, -, -, -, -, -, -, -, -, e0, e1, e2⟩ := idx_facts t
  show V m c main_v3 (((cfg0.win 4).blk t).view.emb (ix3 d o k)) = _
  have he : ((cfg0.win 4).blk t).view.emb (ix3 d o k) = (ix3 d o k : S16x256x256.Idx) :=
    funext fun a => Fin.ext (by
      match a with
      | ⟨0, _⟩ => show win0_4.index t (0 : Fin 3) * 16 + 1 * d.val = d.val; omega
      | ⟨1, _⟩ => show win0_4.index t (1 : Fin 3) * 256 + 1 * o.val = o.val; omega
      | ⟨2, _⟩ => show win0_4.index t (2 : Fin 3) * 256 + 1 * k.val = k.val; omega)
  rw [he, V_v3]

/-! ## The output window's blocks -/

/-- An index of the output array is in point t's block iff each coordinate is in the block's range on its axis. -/
theorem mem_blk5 (t : Fin cfg0.N) (i : S4096x4096.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v4).slice (win0_5.rect t)).set ↔ _
  rw [View.set_slice_whole, Rect.mem_set_unit]
  exact Iff.rfl

/-- Every index of the output array is in the block of the point its column selects. -/
theorem cover5 (i : S4096x4096.Idx) :
    ∃ t : Fin cfg0.N, (cfg0.win 5).flush t = true ∧ i ∈ ((cfg0.win 5).blk t).view.set := by
  have h0 : (i 0).val < 4096 := (i 0).isLt
  have h1 : (i 1).val < 4096 := (i 1).isLt
  have hN : cfg0.N = 16 := N_0
  have hlt : (i 1).val / 256 < cfg0.N := by rw [hN]; omega
  obtain ⟨-, -, e2, e3, -⟩ := idx_facts ⟨(i 1).val / 256, hlt⟩
  refine ⟨⟨(i 1).val / 256, hlt⟩, flush0_5 _, (mem_blk5 _ i).mpr fun a => ?_⟩
  match a with
  | ⟨0, _⟩ =>
    show win0_5.index ⟨(i 1).val / 256, hlt⟩ (0 : Fin 2) * 4096 ≤ (i 0).val ∧ (i 0).val < win0_5.index ⟨(i 1).val / 256, hlt⟩ (0 : Fin 2) * 4096 + 4096
    rw [e2]; omega
  | ⟨1, _⟩ =>
    show win0_5.index ⟨(i 1).val / 256, hlt⟩ (1 : Fin 2) * 256 ≤ (i 1).val ∧ (i 1).val < win0_5.index ⟨(i 1).val / 256, hlt⟩ (1 : Fin 2) * 256 + 256
    rw [e3]
    show (i 1).val / 256 * 256 ≤ (i 1).val ∧ (i 1).val < (i 1).val / 256 * 256 + 256
    omega

end Cert.KernelIdeal.Whole

end
-- ==== Proof.BodyDefs.lean ====
/-
  What the kernel body computes at one grid point, as pure terms of the blocks it loads (any float model).

  The scratch row starts at zero and takes, stretch after stretch of 512 rows, the column sums of the squares of
  the slab: `acc x0 n` is its contents after n stretches.  The factor is the payload `k0_pay3` of the scratch after
  all stretches.  Trip k of the block loop stores, at rows 256k … 256k+255 of the output block, `tile … k`: the
  rectified sum of the two products (own block of rows, paired block of rows 256(15−k) …) and the bias column.
-/
import proofs.«170351_j52080773431507_2_alg».proof.Proof.Gen.KernelIdeal.Skeleton
import Idealize.ShloMosaic.Lib.Pipeline.Value

noncomputable section

namespace Cert.KernelIdeal.Body

open Cert.KernelIdeal Cert.KernelIdeal.Gen Idealize.ShloMosaic

variable {F : FTy → Type} [FloatOps F]

/-- Stretch k of the slab: its rows 512k … 512k+511. -/
def stretch (x0 : Vec F S4096x256 .f32) (k : Fin k0_t1_loop.trips) : Vec F S512x256 .f32 :=
  View.ld (Val := Elt F) x0 (Rect.unit (s := S4096x256) (k0_off1 k) S512x256.size (k0_off1_inb k))

/-- The scratch row after n stretches. -/
def acc (x0 : Vec F S4096x256 .f32) : ℕ → Vec F S1x256 .f32
  | 0 => k0_pay1
  | n + 1 => if h : n < k0_t1_loop.trips then k0_pay2 (stretch x0 ⟨n, h⟩) (acc x0 n) else acc x0 n

theorem acc_succ (x0 : Vec F S4096x256 .f32) (k : Fin k0_t1_loop.trips) :
    acc x0 (k.val + 1) = k0_pay2 (stretch x0 k) (acc x0 k.val) := by
  rw [acc, dif_pos k.isLt]

/-- What trip k of the block loop stores. -/
def tile (x0 : Vec F S4096x256 .f32) (x1 x2 : Vec F S16x1x256 .f32) (x3 x4 : Vec F S16x256x256 .bf16)
    (k : Fin k0_t2_loop.trips) : Vec F S256x256 .f32 :=
  k0_pay4
    (k0_pay5 (k0_pay3 (acc x0 k0_t1_loop.trips))
      (View.ld (Val := Elt F) x0 (Rect.unit (s := S4096x256) (k0_off2 k) S256x256.size (k0_off2_inb k)))
      (View.ld (Val := Elt F) x1 (Rect.unit (s := S16x1x256) (k0_off4 k) S1x1x256.size (k0_off4_inb k)))
      (View.ld (Val := Elt F) x3 (Rect.unit (s := S16x256x256) (k0_off6 k) S1x256x256.size (k0_off6_inb k))))
    (k0_pay6 (k0_pay3 (acc x0 k0_t1_loop.trips))
      (View.ld (Val := Elt F) x0 (Rect.unit (s := S4096x256) (k0_off3 k) S256x256.size (k0_off3_inb k)))
      (View.ld (Val := Elt F) x1 (Rect.unit (s := S16x1x256) (k0_off5 k) S1x1x256.size (k0_off5_inb k)))
      (View.ld (Val := Elt F) x4 (Rect.unit (s := S16x256x256) (k0_off6 k) S1x256x256.size (k0_off6_inb k))))
    (View.ld (Val := Elt F) x2 (Rect.unit (s := S16x1x256) (k0_off4 k) S1x1x256.size (k0_off4_inb k)))

/-- The two loops' trip counts as numbers. -/
theorem trips1 : k0_t1_loop.trips = 8 := by decide
theorem trips2 : k0_t2_loop.trips = 16 := by decide

end Cert.KernelIdeal.Body

end
-- ==== Proof.Pieces.lean ====
/-
  What the body leaves in its output block, read off the run's own record of its stores (any float model).

  The run through the first loop leaves the scratch row at the contents of eight read-add-write trips over the zero
  fill; the run through the second loop leaves the output block at sixteen stores of 256 rows each, trip k at rows
  256k … 256k+255.  Each trip's one store is opened here once; then the scratch row after n stretches is the
  recursion `acc`, and the sixteen stores are sixteen equal tiles kept apart on the row axis, so an index of tile k
  reads `tile … k` at its position inside the tile.
-/
import proofs.«170351_j52080773431507_2_alg».proof.Proof.Gen.KernelIdeal.Frame
import proofs.«170351_j52080773431507_2_alg».proof.Proof.BodyDefs
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Two facts about loads -/

/-- A load through the rectangle of the newest store reads that store's payload. -/
theorem readAt_cons_self {sig' : RefSig} {κ : Kind} {sp : Space} {s : Shape} {e : EltTy} {Val : EltTy → Type}
    (v : View sig' κ sp s e) (f : v.ty.Contents Val) (r : Rect s) (w : r.shape.Idx → Val e)
    (L : List (View.Piece Val s e)) :
    v.readAt Val r.toLoadRect (v.writes Val f ((⟨r, w⟩ : View.Piece Val s e) :: L)) = w :=
  funext fun x => View.read_writes_cons_emb v f r w L x

/-- A load through a rectangle of a whole memref holding X reads X at the rectangle's indices. -/
theorem readAt_unread {s : Shape} {e : EltTy} (mr : Memref sig .tc .vmem s e) (h : mr.IsWhole) (X : s.Idx → Elt F e)
    (r : Rect s) : View.readAt (Elt F) mr.view r.toLoadRect (h.unread X) = View.ld (Val := Elt F) X r := by
  rw [View.readAt_eq_ld, h.read_unread]

variable (c : Dev nD) (i : grid0.Coords) (arg1 : Memref sig .tc .vmem S4096x256 .f32) (harg1 : arg1.IsWhole) (arg2 : Memref sig .tc .vmem S16x1x256 .f32) (harg2 : arg2.IsWhole) (arg3 : Memref sig .tc .vmem S16x1x256 .f32) (harg3 : arg3.IsWhole) (arg4 : Memref sig .tc .vmem S16x256x256 .bf16) (harg4 : arg4.IsWhole) (arg5 : Memref sig .tc .vmem S16x256x256 .bf16) (harg5 : arg5.IsWhole) (arg6 : Memref sig .tc .vmem S4096x256 .f32) (harg6 : arg6.IsWhole) (arg7 : Memref sig .tc .vmem S1x256 .f32) (harg7 : arg7.IsWhole)

/-! ## The stores, opened once -/

/-- The zero fill of the scratch row. -/
abbrev fill : View.Piece (Elt F) S1x256 .f32 :=
  ⟨Rect.unit (s := S1x256) ![0, 0] S1x256.size inb_S1x256_S1x256_0_0, k0_pay1⟩

/-- One stretch's store: the whole scratch row, at the payload of the stretch loaded and the row loaded back. -/
theorem trip1_piece (𝒱 : Variants) (bd : Option 𝒱.V) (X_arg1 : BufTy.Contents (Elt F) arg1.view.ty)
    (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 X_arg1 k f
      = [(⟨Rect.unit (s := S1x256) ![0, 0] S1x256.size inb_S1x256_S1x256_0_0,
          k0_pay2
            (View.readAt (Elt F) arg1.view (Rect.unit (s := S4096x256) (k0_off1 k) S512x256.size (k0_off1_inb k)).toLoadRect X_arg1)
            (View.readAt (Elt F) arg7.view (Rect.unit (s := S1x256) ![0, 0] S1x256.size inb_S1x256_S1x256_0_0).toLoadRect f)⟩ :
          View.Piece (Elt F) S1x256 .f32)] := by
  unfold tripL_k0_t1 trip_k0_t1
  rfl

/-- One block trip's store: rows 256k … of the output block, at the payload of the trip's loads. -/
theorem trip2_piece (𝒱 : Variants) (bd : Option 𝒱.V) (v5 : Vec F S1x256 .f32)
    (X_arg1 : BufTy.Contents (Elt F) arg1.view.ty) (X_arg2 : BufTy.Contents (Elt F) arg2.view.ty)
    (X_arg3 : BufTy.Contents (Elt F) arg3.view.ty) (X_arg4 : BufTy.Contents (Elt F) arg4.view.ty)
    (X_arg5 : BufTy.Contents (Elt F) arg5.view.ty) (k : Fin k0_t2_loop.trips) :
    tripL_k0_t2 (F := F) 𝒱 c bd i arg1 harg1 arg2 harg2 arg3 harg3 arg4 harg4 arg5 harg5 arg6 harg6 arg7 harg7 v5 X_arg1 X_arg2 X_arg3 X_arg4 X_arg5 k
      = [(⟨Rect.unit (s := S4096x256) (k0_off2 k) S256x256.size (k0_off2_inb k),
          k0_pay4
            (k0_pay5 (k0_pay3 v5)
              (View.readAt (Elt F) arg1.view (Rect.unit (s := S4096x256) (k0_off2 k) S256x256.size (k0_off2_inb k)).toLoadRect X_arg1)
              (View.readAt (Elt F) arg2.view (Rect.unit (s := S16x1x256) (k0_off4 k) S1x1x256.size (k0_off4_inb k)).toLoadRect X_arg2)
              (View.readAt (Elt F) arg4.view (Rect.unit (s := S16x256x256) (k0_off6 k) S1x256x256.size (k0_off6_inb k)).toLoadRect X_arg4))
            (k0_pay6 (k0_pay3 v5)
              (View.readAt (Elt F) arg1.view (Rect.unit (s := S4096x256) (k0_off3 k) S256x256.size (k0_off3_inb k)).toLoadRect X_arg1)
              (View.readAt (Elt F) arg2.view (Rect.unit (s := S16x1x256) (k0_off5 k) S1x1x256.size (k0_off5_inb k)).toLoadRect X_arg2)
              (View.readAt (Elt F) arg5.view (Rect.unit (s := S16x256x256) (k0_off6 k) S1x256x256.size (k0_off6_inb k)).toLoadRect X_arg5))
            (View.readAt (Elt F) arg3.view (Rect.unit (s := S16x1x256) (k0_off4 k) S1x1x256.size (k0_off4_inb k)).toLoadRect X_arg3)⟩ :
          View.Piece (Elt F) S4096x256 .f32)] := by
  unfold tripL_k0_t2 trip_k0_t2
  dsimp only
  sl_unfold_run_names
  rfl

variable (x0 : Vec F S4096x256 .f32) (x1 x2 : Vec F S16x1x256 .f32) (x3 x4 : Vec F S16x256x256 .bf16)

/-- The scratch row's contents when the block loop starts, as the run records them. -/
abbrev scratchRead : Vec F S1x256 .f32 :=
  View.readAt (Elt F) arg7.view (Rect.unit (s := S1x256) ![0, 0] S1x256.size inb_S1x256_S1x256_0_0).toLoadRect
    (arg7.view.writes (Elt F) arg7.view.junk
      (pb_k0_t1 (F := F) Variants.none c none i arg1 harg1 arg2 harg2 arg3 harg3 arg4 harg4 arg5 harg5 arg6 harg6 arg7 harg7 (harg1.unread x0)
          (arg7.view.writes (Elt F) arg7.view.junk [fill (F := F)]) k0_t1_loop.trips ++ [fill (F := F)]))

/-- The output block's stores, as the run records them: the block loop's sixteen trips. -/
theorem run_pieces :
    (kernelRun0_A (F := F) c i arg1 harg1 arg2 harg2 arg3 harg3 arg4 harg4 arg5 harg5 arg6 harg6 arg7 harg7 x0 x1 x2 x3 x4).1
      = pb_k0_t2 (F := F) Variants.none c none i arg1 harg1 arg2 harg2 arg3 harg3 arg4 harg4 arg5 harg5 arg6 harg6 arg7 harg7
          (scratchRead (F := F) c i arg1 harg1 arg2 harg2 arg3 harg3 arg4 harg4 arg5 harg5 arg6 harg6 arg7 harg7 x0)
          (harg1.unread x0) (harg2.unread x1) (harg3.unread x2) (harg4.unread x3) (harg5.unread x4) k0_t2_loop.trips := by
  unfold kernelRun0_A
  dsimp only
  sl_unfold_run_names
  rfl

end Cert.KernelIdeal.Body

end
-- ==== Proof.BodyValue.lean ====
/-
  The output block after the body, read at an index (any float model): the scratch row after n stretches is `acc`,
  the block loop's stores are sixteen equal tiles of 256 rows kept apart on the row axis, and an index at position
  x of tile k reads `tile … k` at x.
-/
import proofs.«170351_j52080773431507_2_alg».proof.Proof.Pieces

set_option maxRecDepth 16384

noncomputable section

namespace Cert.KernelIdeal.Body

open Cert.KernelIdeal Cert.KernelIdeal.Gen
open Idealize.ShloMosaic Idealize.ShloMosaic.TcCoe
open Idealize.SL.Sem

variable {F : FTy → Type} [FloatOps F]

variable (c : Dev nD) (i : grid0.Coords) (arg1 : Memref sig .tc .vmem S4096x256 .f32) (harg1 : arg1.IsWhole) (arg2 : Memref sig .tc .vmem S16x1x256 .f32) (harg2 : arg2.IsWhole) (arg3 : Memref sig .tc .vmem S16x1x256 .f32) (harg3 : arg3.IsWhole) (arg4 : Memref sig .tc .vmem S16x256x256 .bf16) (harg4 : arg4.IsWhole) (arg5 : Memref sig .tc .vmem S16x256x256 .bf16) (harg5 : arg5.IsWhole) (arg6 : Memref sig .tc .vmem S4096x256 .f32) (harg6 : arg6.IsWhole) (arg7 : Memref sig .tc .vmem S1x256 .f32) (harg7 : arg7.IsWhole)
variable (x0 : Vec F S4096x256 .f32) (x1 x2 : Vec F S16x1x256 .f32) (x3 x4 : Vec F S16x256x256 .bf16)

/-- The scratch row after n stretches over the zero fill, loaded back, is `acc x0 n`: a stretch's store overwrites
    the whole row with the payload of the stretch and of the row as the earlier stretches left it. -/
theorem scratch_after (𝒱 : Variants) (bd : Option 𝒱.V) (n : ℕ) (hn : n ≤ k0_t1_loop.trips) :
    View.readAt (Elt F) arg7.view (Rect.unit (s := S1x256) ![0, 0] S1x256.size inb_S1x256_S1x256_0_0).toLoadRect
      (arg7.view.writes (Elt F) arg7.view.junk
        (pb_k0_t1 (F := F) 𝒱 c bd i arg1 harg1 arg2 harg2 arg3 harg3 arg4 harg4 arg5 harg5 arg6 harg6 arg7 harg7 (harg1.unread x0)
            (arg7.view.writes (Elt F) arg7.view.junk [fill (F := F)]) n ++ [fill (F := F)]))
      = acc x0 n := by
  induction n with
  | zero =>
    exact readAt_cons_self (Val := Elt F) arg7.view arg7.view.junk
      (Rect.unit (s := S1x256) ![0, 0] S1x256.size inb_S1x256_S1x256_0_0) (k0_pay1 (F := F)) []
  | succ n ih =>
    have hlt : n < k0_t1_loop.trips := hn
    have e : pb_k0_t1 (F := F) 𝒱 c bd i arg1 harg1 arg2 harg2 arg3 harg3 arg4 harg4 arg5 harg5 arg6 harg6 arg7 harg7 (harg1.unread x0)
          (arg7.view.writes (Elt F) arg7.view.junk [fill (F := F)]) (n + 1)
        = tripL_k0_t1 (F := F) 𝒱 c bd i arg1 harg1 arg2 harg2 arg3 harg3 arg4 harg4 arg5 harg5 arg6 harg6 arg7 harg7 (harg1.unread x0) ⟨n, hlt⟩
            (arg7.view.writes (Elt F) (arg7.view.writes (Elt F) arg7.view.junk [fill (F := F)])
              (pb_k0_t1 (F := F) 𝒱 c bd i arg1 harg1 arg2 harg2 arg3 harg3 arg4 harg4 arg5 harg5 arg6 harg6 arg7 harg7 (harg1.unread x0)
                (arg7.view.writes (Elt F) arg7.view.junk [fill (F := F)]) n))
          ++ pb_k0_t1 (F := F) 𝒱 c bd i arg1 harg1 arg2 harg2 arg3 harg3 arg4 harg4 arg5 harg5 arg6 harg6 arg7 harg7 (harg1.unread x0)
              (arg7.view.writes (Elt F) arg7.view.junk [fill (F := F)]) n :=
      pb_k0_t1_succ (F := F) 𝒱 c bd i arg1 harg1 arg2 harg2 arg3 harg3 arg4 harg4 arg5 harg5 arg6 harg6 arg7 harg7 (harg1.unread x0)
        (arg7.view.writes (Elt F) arg7.view.junk [fill (F := F)]) ⟨n, hlt⟩
    have ea : acc x0 (n + 1) = k0_pay2 (stretch x0 ⟨n, hlt⟩) (acc x0 n) := acc_succ x0 ⟨n, hlt⟩
    rw [e, trip1_piece, ea, List.append_assoc, List.singleton_append, readAt_cons_self]
    congr 1
    · exact readAt_unread arg1 harg1 x0 _
    · rw [← View.writes_append]
      exact ih (Nat.le_of_lt hlt)

/-- Trip k's one store, at the contents the run holds: rows 256k … of the output block at `tile … k`. -/
theorem trip2_tile (k : Fin k0_t2_loop.trips) :
    tripL_k0_t2 (F := F) Variants.none c none i arg1 harg1 arg2 harg2 arg3 harg3 arg4 harg4 arg5 harg5 arg6 harg6 arg7 harg7
        (scratchRead (F := F) c i arg1 harg1 arg2 harg2 arg3 harg3 arg4 harg4 arg5 harg5 arg6 harg6 arg7 harg7 x0)
        (harg1.unread x0) (harg2.unread x1) (harg3.unread x2) (harg4.unread x3) (harg5.unread x4) k
      = [(⟨Rect.unit (s := S4096x256) (k0_off2 k) S256x256.size (k0_off2_inb k), tile x0 x1 x2 x3 x4 k⟩ :
          View.Piece (Elt F) S4096x256 .f32)] := by
  rw [trip2_piece]
  unfold tile scratchRead
  rw [scratch_after c i arg1 harg1 arg2 harg2 arg3 harg3 arg4 harg4 arg5 harg5 arg6 harg6 arg7 harg7 x0 Variants.none none k0_t1_loop.trips (Nat.le_refl _),
    readAt_unread arg1 harg1 x0, readAt_unread arg1 harg1 x0, readAt_unread arg2 harg2 x1, readAt_unread arg2 harg2 x1,
    readAt_unread arg3 harg3 x2, readAt_unread arg4 harg4 x3, readAt_unread arg5 harg5 x4]

/-- The block loop's first n stores are the first n of sixteen tiles: tile k at rows 256k …, holding `tile … k`. -/
theorem pb2_eq_tiles (n : ℕ) (hn : n ≤ k0_t2_loop.trips) :
    pb_k0_t2 (F := F) Variants.none c none i arg1 harg1 arg2 harg2 arg3 harg3 arg4 harg4 arg5 harg5 arg6 harg6 arg7 harg7
        (scratchRead (F := F) c i arg1 harg1 arg2 harg2 arg3 harg3 arg4 harg4 arg5 harg5 arg6 harg6 arg7 harg7 x0)
        (harg1.unread x0) (harg2.unread x1) (harg3.unread x2) (harg4.unread x3) (harg5.unread x4) n
      = View.tilePieces (s := S4096x256) (Val := Elt F) (e := .f32) S256x256.size (fun k : Fin k0_t2_loop.trips => k0_off2 k) k0_off2_inb
          (fun k => tile x0 x1 x2 x3 x4 k) n hn := by
  induction n with
  | zero => rfl
  | succ n ih =>
    have hlt : n < k0_t2_loop.trips := hn
    have e : pb_k0_t2 (F := F) Variants.none c none i arg1 harg1 arg2 harg2 arg3 harg3 arg4 harg4 arg5 harg5 arg6 harg6 arg7 harg7
          (scratchRead (F := F) c i arg1 harg1 arg2 harg2 arg3 harg3 arg4 harg4 arg5 harg5 arg6 harg6 arg7 harg7 x0)
          (harg1.unread x0) (harg2.unread x1) (harg3.unread x2) (harg4.unread x3) (harg5.unread x4) (n + 1)
        = tripL_k0_t2 (F := F) Variants.none c none i arg1 harg1 arg2 harg2 arg3 harg3 arg4 harg4 arg5 harg5 arg6 harg6 arg7 harg7
            (scratchRead (F := F) c i arg1 harg1 arg2 harg2 arg3 harg3 arg4 harg4 arg5 harg5 arg6 harg6 arg7 harg7 x0)
            (harg1.unread x0) (harg2.unread x1) (harg3.unread x2) (harg4.unread x3) (harg5.unread x4) ⟨n, hlt⟩
          ++ pb_k0_t2 (F := F) Variants.none c none i arg1 harg1 arg2 harg2 arg3 harg3 arg4 harg4 arg5 harg5 arg6 harg6 arg7 harg7
              (scratchRead (F := F) c i arg1 harg1 arg2 harg2 arg3 harg3 arg4 harg4 arg5 harg5 arg6 harg6 arg7 harg7 x0)
              (harg1.unread x0) (harg2.unread x1) (harg3.unread x2) (harg4.unread x3) (harg5.unread x4) n :=
      pb_k0_t2_succ (F := F) Variants.none c none i arg1 harg1 arg2 harg2 arg3 harg3 arg4 harg4 arg5 harg5 arg6 harg6 arg7 harg7
        (scratchRead (F := F) c i arg1 harg1 arg2 harg2 arg3 harg3 arg4 harg4 arg5 harg5 arg6 harg6 arg7 harg7 x0)
        (harg1.unread x0) (harg2.unread x1) (harg3.unread x2) (harg4.unread x3) (harg5.unread x4) ⟨n, hlt⟩
    rw [e, trip2_tile, View.tilePieces_succ, ih (Nat.le_of_succ_le hn), List.singleton_append]

/-- The output block after the body, at an index y that sits at position x of tile k. -/
theorem out_tile (k : Fin k0_t2_loop.trips) (y : S4096x256.Idx) (x : S256x256.Idx)
    (hx : ∀ a, (y a).val = k0_off2 k a + (x a).val) :
    out0_A_5 (F := F) c i arg1 harg1 arg2 harg2 arg3 harg3 arg4 harg4 arg5 harg5 arg6 harg6 arg7 harg7 x0 x1 x2 x3 x4 y = tile x0 x1 x2 x3 x4 k x := by
  unfold out0_A_5
  rw [run_pieces, pb2_eq_tiles c i arg1 harg1 arg2 harg2 arg3 harg3 arg4 harg4 arg5 harg5 arg6 harg6 arg7 harg7 x0 x1 x2 x3 x4 k0_t2_loop.trips (Nat.le_refl _)]
  refine View.read_tilePieces VO0_5 _ S256x256.size (fun k : Fin k0_t2_loop.trips => k0_off2 k) k0_off2_inb
    (fun k => tile x0 x1 x2 x3 x4 k) k0_t2_loop.trips (Nat.le_refl _) y k k.isLt x hx (0 : Fin 2) ?_
  intro k' hk'
  have h0 := hx (0 : Fin 2)
  have hxlt : (x (0 : Fin 2)).val < 256 := (x (0 : Fin 2)).isLt
  have hne : k'.val ≠ k.val := fun h => hk' (Fin.ext h)
  rw [k0_off2_eq k] at h0
  show (y (0 : Fin 2)).val < k0_off2 k' (0 : Fin 2) ∨ k0_off2 k' (0 : Fin 2) + 256 ≤ (y (0 : Fin 2)).val
  rw [k0_off2_eq k']
  have h0' : (y (0 : Fin 2)).val = 256 * k.val + (x (0 : Fin 2)).val := h0
  show (y (0 : Fin 2)).val < 256 * k'.val ∨ 256 * k'.val + 256 ≤ (y (0 : Fin 2)).val
  omega

end Cert.KernelIdeal.Body

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.TileIdeal.lean ====
/-
  What the kernel body's stored tile is at the exact values, index by index.

  The scratch row after n stretches of 512 rows holds, at column q, the sum of the squares of the first 512·n entries of
  column q of the slab; after all eight it is the column's sum of squares, and the factor read off it is the column's
  normalising factor.  Each of the two products read at (o, q) is the sum over j of a weight at (k, o, j) times the
  slab's entry at row j of a block of 256 rows, scaled by that row's rms parameter and by the column's factor: the own
  block of rows 256k … for the first product and the paired block of rows 256(15 − k) … for the second.  The stored
  tile is the rectified sum of the two products and the bias at row 256k + o.
-/
import proofs.«170351_j52080773431507_2_alg».proof.Proof.BodyDefs
import proofs.«170351_j52080773431507_2_alg».proof.Proof.Spec
import proofs.«170351_j52080773431507_2_alg».proof.Proof.Gen.KernelIdeal
import proofs.«170351_j52080773431507_2_alg».proof.Proof.LibPlainDot
import proofs.«170351_j52080773431507_2_alg».proof.Proof.LibColBroadcast
import proofs.«170351_j52080773431507_2_alg».proof.Proof.LibRowBroadcasts
import proofs.«170351_j52080773431507_2_alg».proof.Proof.LibMergeRows
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## A block loaded at a unit-stride rectangle, read at an index -/

/-- A block of a rank-2 array loaded at offsets `off` reads, at (r, q), the array at the offsets plus (r, q). -/
theorem ld_ix2 {Val : EltTy → Type} {e : EltTy} {n0 n1 m0 m1 : Nat} (X : (⟨2, ![n0, n1]⟩ : Shape).Idx → Val e)
    (off : Fin 2 → Nat)
    (inb : ∀ a, off a + (⟨2, ![m0, m1]⟩ : Shape).size a ≤ (⟨2, ![n0, n1]⟩ : Shape).size a)
    (r : Fin m0) (q : Fin m1) (r' : Fin n0) (q' : Fin n1) (h0 : off 0 + r.val = r'.val) (h1 : off 1 + q.val = q'.val) :
    View.ld X (Rect.unit (s := ⟨2, ![n0, n1]⟩) off (⟨2, ![m0, m1]⟩ : Shape).size inb) (ix2 r q) = X (ix2 r' q') := by
  refine congrArg X (funext fun a => Fin.ext ?_)
  match a with
  | ⟨0, _⟩ => show off 0 + 1 * r.val = r'.val; omega
  | ⟨1, _⟩ => show off 1 + 1 * q.val = q'.val; omega

/-- A block of a rank-3 array loaded at offsets `off` reads, at (p, r, q), the array at the offsets plus (p, r, q). -/
theorem ld_ix3 {Val : EltTy → Type} {e : EltTy} {n0 n1 n2 m0 m1 m2 : Nat} (X : (⟨3, ![n0, n1, n2]⟩ : Shape).Idx → Val e)
    (off : Fin 3 → Nat)
    (inb : ∀ a, off a + (⟨3, ![m0, m1, m2]⟩ : Shape).size a ≤ (⟨3, ![n0, n1, n2]⟩ : Shape).size a)
    (p : Fin m0) (r : Fin m1) (q : Fin m2) (p' : Fin n0) (r' : Fin n1) (q' : Fin n2)
    (h0 : off 0 + p.val = p'.val) (h1 : off 1 + r.val = r'.val) (h2 : off 2 + q.val = q'.val) :
    View.ld X (Rect.unit (s := ⟨3, ![n0, n1, n2]⟩) off (⟨3, ![m0, m1, m2]⟩ : Shape).size inb) (ix3 p r q)
      = X (ix3 p' r' q') := by
  refine congrArg X (funext fun a => Fin.ext ?_)
  match a with
  | ⟨0, _⟩ => show off 0 + 1 * p.val = p'.val; omega
  | ⟨1, _⟩ => show off 1 + 1 * r.val = r'.val; omega
  | ⟨2, _⟩ => show off 2 + 1 * q.val = q'.val; omega

/-! ## The scratch row: the sum of squares in stretches -/

/-- Stretch k of the slab at (r, q) is the slab at row 512k + r. -/
theorem stretch_apply (x0 : Vec Ideal S4096x256 .f32) (k : Fin k0_t1_loop.trips) (r : Fin 512) (q : Fin 256) :
    stretch x0 k (ix2 r q)
      = x0 (ix2 (⟨512 * k.val + r.val, by have := Nat.lt_of_lt_of_eq k.isLt trips1; have := r.isLt; omega⟩ : Fin 4096) q) := by
  unfold stretch
  refine ld_ix2 (Val := Elt Ideal) (e := .f32) x0 (k0_off1 k) (k0_off1_inb k) r q _ q ?_ ?_
  · rw [k0_off1_eq]; rfl
  · rw [k0_off1_eq]; show 0 + q.val = q.val; omega

/-- The sum over the rows of a 512-row block, read at column q. -/
theorem reduce_rows_apply (src : FVec Ideal S512x256 .f32) (h : S512x256.Reduces [0] S256) (hφ : FKind.Formats .f32)
    (hacc : (0x00000000#32 : BitVec 32) = 0x00000000#32) (q : Fin 256) :
    multiReduction .add [0] S256 src 0x00000000#32 h hφ hacc (ix1 q) = ∑ r : Fin 512, src (ix2 r q) := by
  refine (Ideal.multiReduction_add_single src 0x00000000#32 h hφ hacc _).trans ?_
  refine Finset.sum_congr rfl fun r _ => congrArg src ?_
  funext a
  match a with
  | ⟨0, _⟩ => rfl
  | ⟨1, _⟩ => rfl

/-- The scratch row starts at zero. -/
theorem pay1_apply (j : S1x256.Idx) : k0_pay1 (F := Ideal) j = 0 := by
  unfold k0_pay1
  refine (congrFun (shapeCast_self _ _) j).trans ?_
  exact Ideal.ofBits_zero_f32

/-- One stretch adds, at column q, the sum of the squares of the stretch's column q. -/
theorem pay2_apply (v17 : Vec Ideal S512x256 .f32) (v18 : Vec Ideal S1x256 .f32) (q : Fin 256) :
    k0_pay2 v17 v18 (ix2 (0 : Fin 1) q)
      = v18 (ix2 (0 : Fin 1) q) + ∑ r : Fin 512, v17 (ix2 r q) * v17 (ix2 r q) := by
  unfold k0_pay2
  refine (congrFun (shapeCast_self _ _) _).trans ?_
  refine congrArg (v18 (ix2 (0 : Fin 1) q) + ·) ?_
  refine (Cert.Lib.MergeRows.row_apply _ _ q).trans ?_
  exact reduce_rows_apply _ _ _ _ q

/-- The scratch row after n stretches holds, at column q, the running sum of squares of column q of the slab. -/
theorem acc_apply (x0 : Vec Ideal S4096x256 .f32) (n : ℕ) (hn : n ≤ 8) (q : Fin 256) :
    acc x0 n (ix2 (0 : Fin 1) q) = Cert.Spec.partialSq (fun r => x0 (ix2 r q)) n := by
  induction n with
  | zero => exact pay1_apply _
  | succ n ih =>
    have hlt : n < k0_t1_loop.trips := by rw [trips1]; omega
    have e : acc x0 (n + 1) = k0_pay2 (stretch x0 ⟨n, hlt⟩) (acc x0 n) := acc_succ x0 ⟨n, hlt⟩
    rw [e, pay2_apply, ih (by omega)]
    show _ = Cert.Spec.partialSq _ n + ∑ r : Fin 512, Cert.Spec.sqAt _ (512 * n + r.val)
    refine congrArg (Cert.Spec.partialSq _ n + ·) (Finset.sum_congr rfl fun r _ => ?_)
    have hr : 512 * n + r.val < 4096 := by have := r.isLt; omega
    rw [stretch_apply]
    unfold Cert.Spec.sqAt
    rw [dif_pos hr]

/-! ## The factor -/

/-- The factor's arithmetic at an index. -/
theorem pay3_apply (v5 : FVec Ideal S1x256 .f32) (j : S1x256.Idx) :
    k0_pay3 (F := Ideal) v5 j = Ideal.rsqrt (v5 j * Ideal.ofBits .f32 0x39800000#32 + Ideal.ofBits .f32 0x358637BD#32) := rfl

/-- The factor read off the scratch row after all stretches is the column's normalising factor. -/
theorem factor_apply (x0 : Vec Ideal S4096x256 .f32) (q : Fin 256) :
    k0_pay3 (acc x0 k0_t1_loop.trips) (ix2 (0 : Fin 1) q) = Cert.Spec.fc (fun r => x0 (ix2 r q)) := by
  have h8 : acc x0 k0_t1_loop.trips (ix2 (0 : Fin 1) q) = Cert.Spec.sumSq (fun r => x0 (ix2 r q)) :=
    (congrArg (fun n => acc x0 n (ix2 (0 : Fin 1) q)) trips1).trans
      ((acc_apply x0 8 (Nat.le_refl 8) q).trans (Cert.Spec.partialSq_eight _))
  rw [pay3_apply, h8, Cert.Spec.ofBits_inv4096]
  rfl

/-! ## The two products -/

/-- A [1, 1, b] row cast to a length-b vector, then to a b × 1 column, then broadcast across c columns, reads at
    (p, q) the row at p. -/
theorem colOfRow_apply {α : Type} {b c : Nat} (v : (⟨3, ![1, 1, b]⟩ : Shape).Idx → α)
    (h1 : (⟨3, ![1, 1, b]⟩ : Shape).ShapeCasts ⟨1, ![b]⟩) (h2 : (⟨1, ![b]⟩ : Shape).ShapeCasts ⟨2, ![b, 1]⟩)
    (h3 : (⟨2, ![b, 1]⟩ : Shape).Broadcasts ⟨2, ![b, c]⟩) (p : Fin b) (q : Fin c) :
    broadcastTo ⟨2, ![b, c]⟩ (shapeCast ⟨2, ![b, 1]⟩ (shapeCast ⟨1, ![b]⟩ v h1) h2) h3 (ix2 p q)
      = v (ix3 (0 : Fin 1) (0 : Fin 1) p) := by
  refine (Cert.Lib.Cols.bcastCol_apply _ h3 p q).trans ?_
  refine (Cert.Lib.Cols.col_apply _ h2 p).trans ?_
  exact shapeCast_apply v h1 _ _ (by
    rw [Shape.rowMajor_val_three, Shape.rowMajor_val_one]
    show (0 * 1 + 0) * b + p.val = p.val
    rw [Nat.zero_mul, Nat.zero_add])

/-- The product of a weight block with a block of rows scaled by the rms row and the factor row, read at (o, q). -/
theorem pay5_apply (v10 : FVec Ideal S1x256 .f32) (v22 : FVec Ideal S256x256 .f32) (v26 : FVec Ideal S1x1x256 .f32)
    (v44 : FVec Ideal S1x256x256 .bf16) (o q : Fin 256) :
    k0_pay5 (F := Ideal) v10 v22 v26 v44 (ix2 o q)
      = ∑ j : Fin 256, v44 (ix3 (0 : Fin 1) o j)
          * (v22 (ix2 j q) * v26 (ix3 (0 : Fin 1) (0 : Fin 1) j) * v10 (ix2 (0 : Fin 1) q)) := by
  unfold k0_pay5
  refine (Cert.Lib.PlainDot.matmul_zero_apply dot_S256x256_S256x256_S256x256_1_0_0_1_n_n_wf none _ _ o q).trans ?_
  refine Finset.sum_congr rfl fun j _ => ?_
  exact congrArg₂ (· * ·) (shapeCast_1ab_ab_apply v44 _ o j)
    (congrArg₂ (· * ·)
      (congrArg (v22 (ix2 j q) * ·) (colOfRow_apply v26 _ _ _ j q))
      (Cert.Lib.Rows.bcastRow_apply v10 _ j q))

/-- The second product is the same arithmetic. -/
theorem pay6_apply (v10 : FVec Ideal S1x256 .f32) (v24 : FVec Ideal S256x256 .f32) (v30 : FVec Ideal S1x1x256 .f32)
    (v47 : FVec Ideal S1x256x256 .bf16) (o q : Fin 256) :
    k0_pay6 (F := Ideal) v10 v24 v30 v47 (ix2 o q)
      = ∑ j : Fin 256, v47 (ix3 (0 : Fin 1) o j)
          * (v24 (ix2 j q) * v30 (ix3 (0 : Fin 1) (0 : Fin 1) j) * v10 (ix2 (0 : Fin 1) q)) := by
  unfold k0_pay6
  refine (Cert.Lib.PlainDot.matmul_zero_apply dot_S256x256_S256x256_S256x256_1_0_0_1_n_n_wf none _ _ o q).trans ?_
  refine Finset.sum_congr rfl fun j _ => ?_
  exact congrArg₂ (· * ·) (shapeCast_1ab_ab_apply v47 _ o j)
    (congrArg₂ (· * ·)
      (congrArg (v24 (ix2 j q) * ·) (colOfRow_apply v30 _ _ _ j q))
      (Cert.Lib.Rows.bcastRow_apply v10 _ j q))

/-! ## The rectified sum -/

/-- The stored value at (o, q): the two products and the bias at row o, rectified. -/
theorem pay4_apply (v49 v50 : FVec Ideal S256x256 .f32) (v52 : FVec Ideal S1x1x256 .f32) (o q : Fin 256) :
    k0_pay4 (F := Ideal) v49 v50 v52 (ix2 o q)
      = max (v49 (ix2 o q) + v50 (ix2 o q) + v52 (ix3 (0 : Fin 1) (0 : Fin 1) o)) 0 := by
  unfold k0_pay4
  exact congrArg₂ max
    (congrArg (v49 (ix2 o q) + v50 (ix2 o q) + ·) (colOfRow_apply v52 _ _ _ o q))
    Ideal.ofBits_zero_f32

/-! ## The blocks trip k loads -/

/-- The own block of rows at (j, q) is the slab at row j of feature block d. -/
theorem own_block_apply (x0 : Vec Ideal S4096x256 .f32) (k : Fin k0_t2_loop.trips) (d : Fin 16) (hd : k.val = d.val)
    (j q : Fin 256) :
    View.ld (Val := Elt Ideal) x0 (Rect.unit (s := S4096x256) (k0_off2 k) S256x256.size (k0_off2_inb k)) (ix2 j q)
      = x0 (ix2 (Cert.Spec.row d j) q) := by
  refine ld_ix2 (Val := Elt Ideal) (e := .f32) x0 (k0_off2 k) (k0_off2_inb k) j q _ q ?_ ?_
  · rw [k0_off2_eq]
    show 256 * k.val + j.val = 256 * d.val + j.val
    rw [hd]
  · rw [k0_off2_eq]; show 0 + q.val = q.val; omega

/-- The paired block of rows at (j, q) is the slab at row j of the paired feature block. -/
theorem paired_block_apply (x0 : Vec Ideal S4096x256 .f32) (k : Fin k0_t2_loop.trips) (d : Fin 16) (hd : k.val = d.val)
    (j q : Fin 256) :
    View.ld (Val := Elt Ideal) x0 (Rect.unit (s := S4096x256) (k0_off3 k) S256x256.size (k0_off3_inb k)) (ix2 j q)
      = x0 (ix2 (Cert.Spec.row (Cert.Spec.rev d) j) q) := by
  refine ld_ix2 (Val := Elt Ideal) (e := .f32) x0 (k0_off3 k) (k0_off3_inb k) j q _ q ?_ ?_
  · rw [k0_off3_eq]
    show 3840 - 256 * k.val + j.val = 256 * (15 - d.val) + j.val
    have := d.isLt
    omega
  · rw [k0_off3_eq]; show 0 + q.val = q.val; omega

/-- The own row of a [16, 1, 256] array at j is the array at (row / 256, 0, row mod 256) for row j of block d. -/
theorem own_row_apply (x : Vec Ideal S16x1x256 .f32) (k : Fin k0_t2_loop.trips) (d : Fin 16) (hd : k.val = d.val)
    (j : Fin 256) (p : Fin 16) (c : Fin 256) (hp : p.val = (Cert.Spec.row d j).val / 256)
    (hc : c.val = (Cert.Spec.row d j).val % 256) :
    View.ld (Val := Elt Ideal) x (Rect.unit (s := S16x1x256) (k0_off4 k) S1x1x256.size (k0_off4_inb k))
        (ix3 (0 : Fin 1) (0 : Fin 1) j)
      = x (ix3 p (0 : Fin 1) c) := by
  have hj := j.isLt
  rw [Cert.Spec.row_val] at hp hc
  refine ld_ix3 (Val := Elt Ideal) (e := .f32) x (k0_off4 k) (k0_off4_inb k) _ _ j p _ c ?_ ?_ ?_
  · rw [k0_off4_eq]; show k.val + 0 = p.val; omega
  · rw [k0_off4_eq]; rfl
  · rw [k0_off4_eq]; show 0 + j.val = c.val; omega

/-- The paired row likewise, for row j of the paired block. -/
theorem paired_row_apply (x : Vec Ideal S16x1x256 .f32) (k : Fin k0_t2_loop.trips) (d : Fin 16) (hd : k.val = d.val)
    (j : Fin 256) (p : Fin 16) (c : Fin 256) (hp : p.val = (Cert.Spec.row (Cert.Spec.rev d) j).val / 256)
    (hc : c.val = (Cert.Spec.row (Cert.Spec.rev d) j).val % 256) :
    View.ld (Val := Elt Ideal) x (Rect.unit (s := S16x1x256) (k0_off5 k) S1x1x256.size (k0_off5_inb k))
        (ix3 (0 : Fin 1) (0 : Fin 1) j)
      = x (ix3 p (0 : Fin 1) c) := by
  have hj := j.isLt
  rw [Cert.Spec.row_val, Cert.Spec.rev_val] at hp hc
  refine ld_ix3 (Val := Elt Ideal) (e := .f32) x (k0_off5 k) (k0_off5_inb k) _ _ j p _ c ?_ ?_ ?_
  · rw [k0_off5_eq]; show 15 - k.val + 0 = p.val; omega
  · rw [k0_off5_eq]; rfl
  · rw [k0_off5_eq]; show 0 + j.val = c.val; omega

/-- The weight block at (0, o, j) is the weights at (d, o, j). -/
theorem weights_apply (w : Vec Ideal S16x256x256 .bf16) (k : Fin k0_t2_loop.trips) (d : Fin 16) (hd : k.val = d.val)
    (o j : Fin 256) :
    View.ld (Val := Elt Ideal) w (Rect.unit (s := S16x256x256) (k0_off6 k) S1x256x256.size (k0_off6_inb k))
        (ix3 (0 : Fin 1) o j)
      = w (ix3 d o j) := by
  refine ld_ix3 (Val := Elt Ideal) (e := .bf16) w (k0_off6 k) (k0_off6_inb k) _ o j d o j ?_ ?_ ?_
  · rw [k0_off6_eq]; show k.val + 0 = d.val; omega
  · rw [k0_off6_eq]; show 0 + o.val = o.val; omega
  · rw [k0_off6_eq]; show 0 + j.val = j.val; omega

/-! ## The tile -/

/-- The tile trip k stores, read at (o, q), is the result's entry of block d, output row o, of column q of the slab. -/
theorem tile_apply (x0 : Vec Ideal S4096x256 .f32) (x1 x2 : Vec Ideal S16x1x256 .f32) (x3 x4 : Vec Ideal S16x256x256 .bf16)
    (k : Fin k0_t2_loop.trips) (d : Fin 16) (hd : k.val = d.val) (o q : Fin 256) :
    tile x0 x1 x2 x3 x4 k (ix2 o q)
      = Cert.Spec.out (fun r => x0 (ix2 r q))
          (fun r => x1 (ix3 (⟨r.val / 256, by have := r.isLt; omega⟩ : Fin 16) (0 : Fin 1) (⟨r.val % 256, Nat.mod_lt _ (by decide)⟩ : Fin 256)))
          (fun r => x2 (ix3 (⟨r.val / 256, by have := r.isLt; omega⟩ : Fin 16) (0 : Fin 1) (⟨r.val % 256, Nat.mod_lt _ (by decide)⟩ : Fin 256)))
          (fun d o k => x3 (ix3 d o k)) (fun d o k => x4 (ix3 d o k)) d o := by
  unfold tile
  refine (pay4_apply _ _ _ o q).trans ?_
  unfold Cert.Spec.out
  refine congrArg₂ max (congrArg₂ (· + ·) (congrArg₂ (· + ·) ?_ ?_) ?_) rfl
  · refine (pay5_apply _ _ _ _ o q).trans (Finset.sum_congr rfl fun j _ => ?_)
    exact congrArg₂ (· * ·) (weights_apply x3 k d hd o j)
      (congrArg₂ (· * ·)
        (congrArg₂ (· * ·) (own_block_apply x0 k d hd j q) (own_row_apply x1 k d hd j _ _ rfl rfl))
        (factor_apply x0 q))
  · refine (pay6_apply _ _ _ _ o q).trans (Finset.sum_congr rfl fun j _ => ?_)
    exact congrArg₂ (· * ·) (weights_apply x4 k d hd o j)
      (congrArg₂ (· * ·)
        (congrArg₂ (· * ·) (paired_block_apply x0 k d hd j q) (paired_row_apply x1 k d hd j _ _ rfl rfl))
        (factor_apply x0 q))
  · exact own_row_apply x2 k d hd o _ _ rfl rfl

end Cert.KernelIdeal.Body

end
-- ==== Proof.Whole.lean ====
/-
  The kernel's result array is the specification's function G of the arguments.

  What grid point t writes back is the output block the body left; an index of that block is row 256d + o, column q,
  at position (o, q) of the tile the block loop's trip d stored, which over the extended reals is the
  specification's entry for block d, row o, of column q of the slab — and column q of the slab at point t is column
  256t + q of x, while rms, bias and the weights are the arguments themselves.  So the write-back is block t of G,
  the sixteen blocks cover the array, and the array ends at G.
-/
import proofs.«170351_j52080773431507_2_alg».proof.Proof.Slab
import proofs.«170351_j52080773431507_2_alg».proof.Proof.BodyValue
import proofs.«170351_j52080773431507_2_alg».proof.Proof.TileIdeal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- G of the arguments as launched on core c. -/
abbrev GK (c : Dev nD) : S4096x4096.Idx → EReal :=
  Cert.Spec.G (m ((c : Thread nD τ).loc main_arg0)) (m ((c : Thread nD τ).loc main_arg1)) (m ((c : Thread nD τ).loc main_arg4))
    (m ((c : Thread nD τ).loc main_arg2)) (m ((c : Thread nD τ).loc main_arg3))

/-- Row r is row r % 256 of block r / 256. -/
theorem row_divmod (r : Fin 4096) :
    Cert.Spec.row (⟨r.val / 256, by have := r.isLt; omega⟩ : Fin 16) (⟨r.val % 256, Nat.mod_lt _ (by decide)⟩ : Fin 256) = r :=
  Fin.ext (by show 256 * (r.val / 256) + r.val % 256 = r.val; omega)

/-- What point t writes back is block t of G. -/
theorem flushed_eq (c : Dev nD) (t : Fin cfg0.N) :
    (dats m 0 c).flushed 5 t = ((cfg0.win 5).blk t).view.read (Elt Ideal) (GK m c) := by
  rw [Cert.KernelIdeal.Value.flushed5_A]
  funext j
  obtain ⟨R, q, rfl⟩ : ∃ (R : Fin 4096) (q : Fin 256), j = ix2 R q := ⟨j 0, j 1, eq_ix2 j⟩
  obtain ⟨d, o, rfl⟩ : ∃ (d : Fin 16) (o : Fin 256), R = Cert.Spec.row d o :=
    ⟨⟨R.val / 256, by have := R.isLt; omega⟩, ⟨R.val % 256, Nat.mod_lt _ (by decide)⟩, (row_divmod R).symm⟩
  have ht : t.val < 16 := Nat.lt_of_lt_of_eq t.isLt (N_0 : cfg0.N = 16)
  have hq : q.val < 256 := q.isLt
  obtain ⟨-, -, e2, e3, -⟩ := idx_facts t
  have hemb : ((cfg0.win 5).blk t).view.emb (ix2 (Cert.Spec.row d o) q)
      = (ix2 (Cert.Spec.row d o) (⟨256 * t.val + q.val, by omega⟩ : Fin 4096) : S4096x4096.Idx) :=
    funext fun a => Fin.ext (by
      match a with
      | ⟨0, _⟩ => show win0_5.index t (0 : Fin 2) * 4096 + 1 * (Cert.Spec.row d o).val = (Cert.Spec.row d o).val; omega
      | ⟨1, _⟩ => show win0_5.index t (1 : Fin 2) * 256 + 1 * q.val = 256 * t.val + q.val; omega)
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (ix2 (Cert.Spec.row d o) q)
    = GK m c (((cfg0.win 5).blk t).view.emb (ix2 (Cert.Spec.row d o) q))
  rw [hemb, GK, Cert.Spec.G_row]
  have hk : d.val < k0_t2_loop.trips := by rw [Body.trips2]; exact d.isLt
  rw [Body.out_tile c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (iblk m c 4 t) ⟨d.val, hk⟩ (ix2 (Cert.Spec.row d o) q) (ix2 o q)
      (fun a => by
        rw [k0_off2_eq]
        match a with
        | ⟨0, _⟩ => rfl
        | ⟨1, _⟩ => show q.val = 0 + q.val; omega),
    Body.tile_apply (iblk m c 0 t) (iblk m c 1 t) (iblk m c 2 t) (iblk m c 3 t) (iblk m c 4 t) ⟨d.val, hk⟩ d rfl o q]
  simp only [iblk0_apply m c t _ q (⟨256 * t.val + q.val, by omega⟩ : Fin 4096) rfl, iblk1_apply, iblk2_apply, iblk3_apply,
    iblk4_apply, row_divmod]

/-- The output array after the run. -/
theorem final (c : Dev nD) : (dats m 0 c).arrAt 5 cfg0.N = GK m c :=
  (dats m 0 c).arrAt_eq_of_cover 5 (GK m c) (fun t _ => flushed_eq m c t) cover5

/-- The kernel's run: the result array ends at G of the arguments, the arguments unchanged. -/
theorem run : θ_run defs (onTc (τ := τ) (main (F := Ideal))) ⟨m, fun _ => 0, ρ⟩ fun r => ∀ c : Dev nD,
      r.2.mem ((c : Thread nD τ).loc main_v4) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  Both programs compute, per batch column b, the factor fc b = rsqrt (mean over the 4096 feature rows of x² + ε), scale
  every entry x r b by rms r · fc b, and for each of the sixteen feature blocks d form
  relu (W_upper[d] · xn[d] + W_lower[d] · xn[15 − d] + bias[d]).  The kernel does so one slab of 256 columns at a time,
  summing the squares in eight stretches of 512 rows and walking the sixteen blocks in a loop; the reference does it
  in whole-array operations.  Over the extended reals the two are one function G of the arguments (Spec): the sum of
  squares may be taken in stretches because addition is a commutative monoid, the product with the word 2⁻¹² is the
  quotient by 4096 on every extended real, a change of float format is the identity, and both programs group the
  contraction, the bias and the maximum alike, so no distributive law and no finiteness of the inputs is used.

  The kernel's result array is G (Whole.run): each grid point writes back the block of G over its 256 columns, and
  the sixteen blocks cover the array.  The reference's result is G (RefValue.ref_eq_G).  The three frames are the
  generated frame runs, and the idealization rewrote nothing, so its claim is trivial.
-/
import proofs.«170351_j52080773431507_2_alg».proof.Defs
import proofs.«170351_j52080773431507_2_alg».proof.Proof.Gen.Kernel
import proofs.«170351_j52080773431507_2_alg».proof.Proof.Gen.Kernel.Skeleton
import proofs.«170351_j52080773431507_2_alg».proof.Proof.Gen.Kernel.Loops
import proofs.«170351_j52080773431507_2_alg».proof.Proof.Gen.Kernel.Launch
import proofs.«170351_j52080773431507_2_alg».proof.Proof.Gen.Kernel.Points
import proofs.«170351_j52080773431507_2_alg».proof.Proof.Gen.Kernel.Frame
import proofs.«170351_j52080773431507_2_alg».proof.Proof.Gen.KernelIdeal
import proofs.«170351_j52080773431507_2_alg».proof.Proof.Gen.KernelIdeal.Skeleton
import proofs.«170351_j52080773431507_2_alg».proof.Proof.Gen.KernelIdeal.Loops
import proofs.«170351_j52080773431507_2_alg».proof.Proof.Gen.KernelIdeal.Launch
import proofs.«170351_j52080773431507_2_alg».proof.Proof.Gen.KernelIdeal.Points
import proofs.«170351_j52080773431507_2_alg».proof.Proof.Gen.KernelIdeal.Frame
import proofs.«170351_j52080773431507_2_alg».proof.Proof.Gen.KernelIdeal.Value
import proofs.«170351_j52080773431507_2_alg».proof.Proof.Gen.ReferenceIdeal
import proofs.«170351_j52080773431507_2_alg».proof.Proof.Gen.ReferenceIdeal.Run
import proofs.«170351_j52080773431507_2_alg».proof.Proof.Gen.ReferenceIdeal.Read
import proofs.«170351_j52080773431507_2_alg».proof.Proof.Gen.Pre_finite_inputs
import proofs.«170351_j52080773431507_2_alg».proof.Proof.Spec
import proofs.«170351_j52080773431507_2_alg».proof.Proof.RefIsG
import proofs.«170351_j52080773431507_2_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at G of the arguments, which agree. -/
theorem algebraic : Cert.algebraic_KernelIdeal_ReferenceIdeal := by
  intro m ρ m' ρ' _ hagree
  refine ⟨fun c => Cert.KernelIdeal.Whole.GK m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefValue.ref_eq_G, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
